-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1000000 32) (main_arg2 : IVec S1000000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 48
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1100000, .i32⟩
  | .hbm, ⟨11, _⟩ => ⟨S1100000, .i32⟩
  | .hbm, ⟨12, _⟩ => ⟨S_, .f32⟩
  | .hbm, ⟨13, _⟩ => ⟨S1100000, .f32⟩
  | .hbm, ⟨14, _⟩ => ⟨S_, .f32⟩
  | .hbm, ⟨15, _⟩ => ⟨S100000, .f32⟩
  | .hbm, ⟨16, _⟩ => ⟨S1100000x1, .i32⟩
  | .hbm, ⟨17, _⟩ => ⟨S100000, .f32⟩
  | .hbm, ⟨18, _⟩ => ⟨S_, .i32⟩
  | .hbm, ⟨19, _⟩ => ⟨S1100000, .i32⟩
  | .hbm, ⟨20, _⟩ => ⟨S1100000, .i1⟩
  | .hbm, ⟨21, _⟩ => ⟨S_, .i32⟩
  | .hbm, ⟨22, _⟩ => ⟨S1100000, .i32⟩
  | .hbm, ⟨23, _⟩ => ⟨S1100000, .i32⟩
  | .hbm, ⟨24, _⟩ => ⟨S1100000, .i32⟩
  | .hbm, ⟨25, _⟩ => ⟨S1100000x1, .i32⟩
  | .hbm, ⟨26, _⟩ => ⟨S1100000x128, .f32⟩
  | .hbm, ⟨27, _⟩ => ⟨S_, .f32⟩
  | .hbm, ⟨28, _⟩ => ⟨S100000x128, .f32⟩
  | .hbm, ⟨29, _⟩ => ⟨S1100000x1, .i32⟩
  | .hbm, ⟨30, _⟩ => ⟨S100000x128, .f32⟩
  | .hbm, ⟨31, _⟩ => ⟨S100000x1, .f32⟩
  | .hbm, ⟨32, _⟩ => ⟨S100000x128, .f32⟩
  | .hbm, ⟨33, _⟩ => ⟨S_, .i32⟩
  | .hbm, ⟨34, _⟩ => ⟨S1100000, .i32⟩
  | .hbm, ⟨35, _⟩ => ⟨S1100000, .i1⟩
  | .hbm, ⟨36, _⟩ => ⟨S_, .i32⟩
  | .hbm, ⟨37, _⟩ => ⟨S1100000, .i32⟩
  | .hbm, ⟨38, _⟩ => ⟨S1100000, .i32⟩
  | .hbm, ⟨39, _⟩ => ⟨S1100000, .i32⟩
  | .hbm, ⟨40, _⟩ => ⟨S1100000x1, .i32⟩
  | .hbm, ⟨41, _⟩ => ⟨S1100000x128, .f32⟩
  | .hbm, ⟨42, _⟩ => ⟨S_, .f32⟩
  | .hbm, ⟨43, _⟩ => ⟨S100000x128, .f32⟩
  | .hbm, ⟨44, _⟩ => ⟨S1100000x1, .i32⟩
  | .hbm, ⟨45, _⟩ => ⟨S100000x128, .f32⟩
  | .hbm, ⟨46, _⟩ => ⟨S100000x1, .f32⟩
  | .hbm, ⟨47, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x64, .f32⟩
  | .local _ .vmem, ⟨18, _⟩ => ⟨S128x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S100000x128 : S_.BroadcastsInDim S100000x128 (![] : Fin 0 → Fin S100000x128.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1100000x1_S1100000_n_0_0_1_wf : ScatterDims.WF S100000 S1100000x1 S1100000 [] [0] [0] 1
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1100000, .i32⟩
  | .hbm, ⟨11, _⟩ => ⟨S1100000, .i32⟩
  | .hbm, ⟨12, _⟩ => ⟨S_, .i32⟩
  | .hbm, ⟨13, _⟩ => ⟨S1100000, .i32⟩
  | .hbm, ⟨14, _⟩ => ⟨S1100000, .i1⟩
  | .hbm, ⟨15, _⟩ => ⟨S_, .i32⟩
  | .hbm, ⟨16, _⟩ => ⟨S1100000, .i32⟩
  | .hbm, ⟨17, _⟩ => ⟨S1100000, .i32⟩
  | .hbm, ⟨18, _⟩ => ⟨S1100000, .i32⟩
  | .hbm, ⟨19, _⟩ => ⟨S1100000x1, .i32⟩
  | .hbm, ⟨20, _⟩ => ⟨S1100000x128, .f32⟩
  | .hbm, ⟨21, _⟩ => ⟨S_, .f32⟩
  | .hbm, ⟨22, _⟩ => ⟨S100000x128, .f32⟩
  | .hbm, ⟨23, _⟩ => ⟨S1100000x1, .i32⟩
  | .hbm, ⟨24, _⟩ => ⟨S100000x128, .f32⟩
  | .hbm, ⟨25, _⟩ => ⟨S_, .f32⟩
  | .hbm, ⟨26, _⟩ => ⟨S1100000, .f32⟩
  | .hbm, ⟨27, _⟩ => ⟨S_, .f32⟩
  | .hbm, ⟨28, _⟩ => ⟨S100000, .f32⟩
  | .hbm, ⟨29, _⟩ => ⟨S1100000x1, .i32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1100000, .i32⟩
  | .hbm, ⟨45, _⟩ => ⟨S1100000, .i1⟩
  | .hbm, ⟨46, _⟩ => ⟨S_, .i32⟩
  | .hbm, ⟨47, _⟩ => ⟨S1100000, .i32⟩
  | .hbm, ⟨48, _⟩ => ⟨S1100000, .i32⟩
  | .hbm, ⟨49, _⟩ => ⟨S1100000, .i32⟩
  | .hbm, ⟨50, _⟩ => ⟨S1100000x1, .i32⟩
  | .hbm, ⟨51, _⟩ => ⟨S1100000x128, .f32⟩
  | .hbm, ⟨52, _⟩ => ⟨S_, .f32⟩
  | .hbm, ⟨53, _⟩ => ⟨S100000x128, .f32⟩
  | .hbm, ⟨54, _⟩ => ⟨S1100000x1, .i32⟩
  | .hbm, ⟨55, _⟩ => ⟨S100000x128, .f32⟩
  | .hbm, ⟨56, _⟩ => ⟨S_, .f32⟩
  | .hbm, ⟨57, _⟩ => ⟨S1100000, .f32⟩
  | .hbm, ⟨58, _⟩ => ⟨S_, .f32⟩
  | .hbm, ⟨59, _⟩ => ⟨S100000, .f32⟩
  | .hbm, ⟨60, _⟩ => ⟨S1100000x1, .i32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  concatenates_S1000000_S100000_S1100000_d0 : Shape.Concatenates [S1000000, S100000] S1100000 0
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  scatter_S100000_S1100000x1_S1100000_n_0_0_1_wf : ScatterDims.WF S100000 S1100000x1 S1100000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's whole run, with its result array named.

  The program is two pipelined regions among host operations. Its buffer contents at the four segment boundaries are a
  fold from the launch memory: the host operations before the first region, that region's write-backs, the host
  operations between the regions, the second region's write-backs. Every weakly fair execution terminates without a
  fault in a state where each buffer the TensorCore keeps across regions holds the last boundary's contents; read at
  the result array and at the nine arguments, that is the statement below.
-/
import proofs.«124691_j24773371363586_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents
    the last boundary gives it and the nine argument arrays as launched. -/
theorem run : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.CombinePayload.lean ====
/-
  What one grid point of either region stores, read at an index of its block, over the exact extended reals.

  The body takes a tile of node features `x` (5000 rows), the matching tile of aggregated neighbour features `agg`, the
  tile of the degree column `dg` (5000 x 1), the two weight matrices and the bias. It divides every row of `agg` by
  that row's degree, multiplies `x` by the first matrix and the quotient by the second (each product accumulated from
  zero), adds the two products, then adds the bias along the rows. The first region also takes the maximum with zero.
  So entry (p, q) of the stored tile is
      (sum_e x(p,e) * ws(e,q) + sum_e (agg(p,e) / dg(p,0)) * wn(e,q)) + b(q),
  under a maximum with zero in the first region.
-/
import proofs.«124691_j24773371363586_1_alg».proof.Proof.Gen.KernelIdeal.Skeleton
import proofs.«124691_j24773371363586_1_alg».proof.Proof.LibMatmulNN
import proofs.«124691_j24773371363586_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine

open Idealize.ShloMosaic Idealize.ShloMosaic.ValueIdx
open Cert.KernelIdeal Cert.KernelIdeal.Gen

/-- A 5000 x 128 tile against a 128 x 128 matrix, accumulated from zero: entry (p, q) is row p against column q. -/
theorem matmul_128_apply (l : FVec Ideal S5000x128 .f32) (r : FVec Ideal S128x128 .f32) (p : Fin 5000) (q : Fin 128) :
    matmul (F := Ideal) dot_S5000x128_S128x128_S5000x128_1_0_0_1_n_n none l r (constant (F := Ideal) S5000x128 .f32 0x00000000#32) (ix2 p q)
      = ∑ e : Fin 128, l (ix2 p e) * r (ix2 e q) :=
  Cert.LibMatmulNN.matmul_zero_apply (M := 5000) (N := 128) (K := 128) dot_S5000x128_S128x128_S5000x128_1_0_0_1_n_n.wf none l r p q

/-- A 5000 x 128 tile against a 128 x 64 matrix, accumulated from zero: entry (p, q) is row p against column q. -/
theorem matmul_64_apply (l : FVec Ideal S5000x128 .f32) (r : FVec Ideal S128x64 .f32) (p : Fin 5000) (q : Fin 64) :
    matmul (F := Ideal) dot_S5000x128_S128x64_S5000x64_1_0_0_1_n_n none l r (constant (F := Ideal) S5000x64 .f32 0x00000000#32) (ix2 p q)
      = ∑ e : Fin 128, l (ix2 p e) * r (ix2 e q) :=
  Cert.LibMatmulNN.matmul_zero_apply (M := 5000) (N := 64) (K := 128) dot_S5000x128_S128x64_S5000x64_1_0_0_1_n_n.wf none l r p q

/-- The first region's stored tile at (p, q). -/
theorem pay0_apply (x agg : Vec Ideal S5000x128 .f32) (dg : Vec Ideal S5000x1 .f32) (ws wn : Vec Ideal S128x128 .f32)
    (b : Vec Ideal S128 .f32) (p : Fin 5000) (q : Fin 128) :
    k0_pay1 (F := Ideal) x agg dg ws wn b (ix2 p q)
      = max ((∑ e : Fin 128, x (ix2 p e) * ws (ix2 e q)
              + ∑ e : Fin 128, Ideal.div (agg (ix2 p e)) (dg (ix2 p (0 : Fin 1))) * wn (ix2 e q))
            + b (ix1 q)) (Ideal.ofBits .f32 0x00000000#32) := by
  unfold k0_pay1
  rw [maximumf_apply, addf_apply, addf_apply, broadcast_apply, shapeCast_self, shapeCast_self]
  rw [matmul_128_apply, matmul_128_apply, broadcastTo_1b_ab_apply, shapeCast_a_1a_apply]
  simp only [divf_apply, Cert.Layout.broadcastTo_a1_ab_apply]
  rfl

/-- The second region's stored tile at (p, q): the same sums against the 128 x 64 matrices, no maximum. -/
theorem pay1_apply (x agg : Vec Ideal S5000x128 .f32) (dg : Vec Ideal S5000x1 .f32) (ws wn : Vec Ideal S128x64 .f32)
    (b : Vec Ideal S64 .f32) (p : Fin 5000) (q : Fin 64) :
    k1_pay1 (F := Ideal) x agg dg ws wn b (ix2 p q)
      = (∑ e : Fin 128, x (ix2 p e) * ws (ix2 e q)
              + ∑ e : Fin 128, Ideal.div (agg (ix2 p e)) (dg (ix2 p (0 : Fin 1))) * wn (ix2 e q))
            + b (ix1 q) := by
  unfold k1_pay1
  rw [addf_apply, addf_apply, shapeCast_self, shapeCast_self, shapeCast_self]
  rw [matmul_64_apply, matmul_64_apply, broadcastTo_1b_ab_apply, shapeCast_a_1a_apply]
  simp only [divf_apply, Cert.Layout.broadcastTo_a1_ab_apply]

end Cert.KernelIdeal.Combine

end
-- ==== Proof.SageSpec.lean ====
/-
  The two layers of the network, stated index by index over the exact extended reals.

  A layer takes the node features `X` (100000 nodes, 128 features each), the neighbour sums `A` of the same shape, the
  degree column `D` (one entry per node), two weight matrices `WS`, `WN` (128 x n) and a bias `B` (n). At node `p`
  and output feature `q` it is
      (sum_e X(p,e) * WS(e,q) + sum_e (A(p,e) / D(p,0)) * WN(e,q)) + B(q):
  the node's own features through the first matrix, the mean of its neighbours' features through the second, and the
  bias, added in that order. The hidden layer (n = 128) is followed by a maximum with zero; the output layer (n = 64)
  is not.
-/
import Idealize.ShloMosaic.PureOps.Ideal
import Idealize.ShloMosaic.Lib.ValueIdx

noncomputable section

namespace Cert.Sage

open Idealize.ShloMosaic Idealize.ShloMosaic.ValueIdx

/-- One layer at node `p` and output feature `q`, before any activation. -/
def combineAt {n : ℕ} (X A : Vec Ideal ⟨2, ![100000, 128]⟩ .f32) (D : Vec Ideal ⟨2, ![100000, 1]⟩ .f32)
    (WS WN : Vec Ideal ⟨2, ![128, n]⟩ .f32) (B : Vec Ideal ⟨1, ![n]⟩ .f32) (p : Fin 100000) (q : Fin n) : Elt Ideal .f32 :=
  (∑ e : Fin 128, X (ix2 p e) * WS (ix2 e q) + ∑ e : Fin 128, Ideal.div (A (ix2 p e)) (D (ix2 p (0 : Fin 1))) * WN (ix2 e q))
    + B (ix1 q)

/-- The hidden layer: 128 output features, then the maximum with zero. -/
def hidden (X A : Vec Ideal ⟨2, ![100000, 128]⟩ .f32) (D : Vec Ideal ⟨2, ![100000, 1]⟩ .f32)
    (WS WN : Vec Ideal ⟨2, ![128, 128]⟩ .f32) (B : Vec Ideal ⟨1, ![128]⟩ .f32) : Vec Ideal ⟨2, ![100000, 128]⟩ .f32 :=
  fun i => max (combineAt X A D WS WN B (i 0) (i 1)) (Ideal.ofBits .f32 0x00000000#32)

/-- The output layer: 64 output features, no activation. -/
def output (X A : Vec Ideal ⟨2, ![100000, 128]⟩ .f32) (D : Vec Ideal ⟨2, ![100000, 1]⟩ .f32)
    (WS WN : Vec Ideal ⟨2, ![128, 64]⟩ .f32) (B : Vec Ideal ⟨1, ![64]⟩ .f32) : Vec Ideal ⟨2, ![100000, 64]⟩ .f32 :=
  fun i => combineAt X A D WS WN B (i 0) (i 1)

theorem hidden_apply (X A : Vec Ideal ⟨2, ![100000, 128]⟩ .f32) (D : Vec Ideal ⟨2, ![100000, 1]⟩ .f32)
    (WS WN : Vec Ideal ⟨2, ![128, 128]⟩ .f32) (B : Vec Ideal ⟨1, ![128]⟩ .f32) (p : Fin 100000) (q : Fin 128) :
    hidden X A D WS WN B (ix2 p q) = max (combineAt X A D WS WN B p q) (Ideal.ofBits .f32 0x00000000#32) := rfl

theorem output_apply (X A : Vec Ideal ⟨2, ![100000, 128]⟩ .f32) (D : Vec Ideal ⟨2, ![100000, 1]⟩ .f32)
    (WS WN : Vec Ideal ⟨2, ![128, 64]⟩ .f32) (B : Vec Ideal ⟨1, ![64]⟩ .f32) (p : Fin 100000) (q : Fin 64) :
    output X A D WS WN B (ix2 p q) = combineAt X A D WS WN B p q := rfl

end Cert.Sage

end
-- ==== Proof.LayerOne.lean ====
/-
  The first region's result array as one function of the arrays it is entered with.

  The region walks the 100000 node rows in 20 tiles of 5000. At tile `t` the three row-tiled operands (node features,
  neighbour sums, degree column) are rows 5000 t ... 5000 t + 4999 of their arrays, and the two weight matrices and
  the bias are read whole. What the body stores for tile row `p` is therefore the hidden layer of the whole arrays at
  node 5000 t + p. The 20 tiles cover every node once, so after the region the result array is the hidden layer of
  the whole arrays.
-/
import proofs.«124691_j24773371363586_1_alg».proof.Proof.Gen.KernelIdeal.Frame
import proofs.«124691_j24773371363586_1_alg».proof.Proof.CombinePayload
import proofs.«124691_j24773371363586_1_alg».proof.Proof.SageSpec
import Idealize.ShloMosaic.Lib.Pipeline.Value

set_option maxRecDepth 16384
set_option pp.maxSteps 20000
set_option pp.deepTerms false

noncomputable section

namespace Cert.KernelIdeal.LayerOne

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Combine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 20 grid points: the three row-tiled inputs move with the output's row tile, every
    column index and every index of the weights and the bias is zero, and the output's row tile is below 20. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) ≤ 19 ∧ win0_6.index t (1 : Fin 2) = 0 :=
  (by decide +kernel : ∀ t : Fin grid0.N, _)

/-- Every row tile is some grid point's. -/
theorem idx_onto : ∀ q0 : Fin 20, ∃ t : Fin cfg0.N, win0_6.index t = ![q0.val, 0] :=
  (by decide +kernel : ∀ q0 : Fin 20, ∃ t : Fin grid0.N, win0_6.index t = ![q0.val, 0])

/-- The hidden layer of the arrays the region is entered with. -/
abbrev G (c : Dev nD) : Vec Ideal S100000x128 .f32 :=
  Cert.Sage.hidden (V c main_arg0) (V c main_v16) (V c main_v17) (V c main_arg3) (V c main_arg4) (V c main_arg5)

/-- One tile: if the three row-tiled blocks are rows `r ... r + 4999` of whole arrays and the other three blocks are
    whole arrays, the stored tile at row `p` is the hidden layer of the whole arrays at node `r + p`. -/
theorem tile_eq (X A : Vec Ideal S100000x128 .f32) (D : Vec Ideal S100000x1 .f32) (WS WN : Vec Ideal S128x128 .f32)
    (B : Vec Ideal S128 .f32) (x agg : Vec Ideal S5000x128 .f32) (dg : Vec Ideal S5000x1 .f32)
    (ws wn : Vec Ideal S128x128 .f32) (b : Vec Ideal S128 .f32) (r : ℕ)
    (hx : ∀ (y : S5000x128.Idx) (k : S100000x128.Idx), (k 0).val = r + (y 0).val → (k 1).val = (y 1).val → x y = X k)
    (hagg : ∀ (y : S5000x128.Idx) (k : S100000x128.Idx), (k 0).val = r + (y 0).val → (k 1).val = (y 1).val → agg y = A k)
    (hdg : ∀ (y : S5000x1.Idx) (k : S100000x1.Idx), (k 0).val = r + (y 0).val → (k 1).val = (y 1).val → dg y = D k)
    (hws : ws = WS) (hwn : wn = WN) (hb : b = B)
    (y : S5000x128.Idx) (k : S100000x128.Idx) (hk0 : (k 0).val = r + (y 0).val) (hk1 : (k 1).val = (y 1).val) :
    k0_pay1 (F := Ideal) x agg dg ws wn b y = Cert.Sage.hidden X A D WS WN B k := by
  subst hws hwn hb
  obtain ⟨p, q, rfl⟩ : ∃ (p : Fin 5000) (q : Fin 128), y = ix2 p q := ⟨y 0, y 1, eq_ix2 y⟩
  obtain ⟨P, Q, rfl⟩ : ∃ (P : Fin 100000) (Q : Fin 128), k = ix2 P Q := ⟨k 0, k 1, eq_ix2 k⟩
  have hP : P.val = r + p.val := hk0
  obtain rfl : Q = q := Fin.ext hk1
  rw [pay0_apply, Cert.Sage.hidden_apply]
  unfold Cert.Sage.combineAt
  simp only [fun e => hx (ix2 p e) (ix2 P e) hP rfl, fun e => hagg (ix2 p e) (ix2 P e) hP rfl,
    hdg (ix2 p (0 : Fin 1)) (ix2 P (0 : Fin 1)) hP rfl]

/-- Block `t` of the node features is rows `5000 t ...` of the array. -/
theorem blk_x (c : Dev nD) (t : Fin cfg0.N) (y : S5000x128.Idx) (k : S100000x128.Idx)
    (hk0 : (k 0).val = win0_0.index t 0 * 5000 + (y 0).val) (hk1 : (k 1).val = win0_0.index t 1 * 128 + (y 1).val) :
    (iblk0 V c 0 t : Vec Ideal S5000x128 .f32) y = (V c main_arg0 : Vec Ideal S100000x128 .f32) k := by
  unfold iblk0
  rw [View.read_apply]
  refine congrArg (V c main_arg0 : S100000x128.Idx → Elt Ideal .f32) ?_
  funext a
  apply Fin.ext
  match a with
  | ⟨0, _⟩ => show win0_0.index t 0 * 5000 + 1 * (y 0).val = (k 0).val; omega
  | ⟨1, _⟩ => show win0_0.index t 1 * 128 + 1 * (y 1).val = (k 1).val; omega

/-- Block `t` of the neighbour sums is rows `5000 t ...` of the array. -/
theorem blk_agg (c : Dev nD) (t : Fin cfg0.N) (y : S5000x128.Idx) (k : S100000x128.Idx)
    (hk0 : (k 0).val = win0_1.index t 0 * 5000 + (y 0).val) (hk1 : (k 1).val = win0_1.index t 1 * 128 + (y 1).val) :
    (iblk0 V c 1 t : Vec Ideal S5000x128 .f32) y = (V c main_v16 : Vec Ideal S100000x128 .f32) k := by
  unfold iblk0
  rw [View.read_apply]
  refine congrArg (V c main_v16 : S100000x128.Idx → Elt Ideal .f32) ?_
  funext a
  apply Fin.ext
  match a with
  | ⟨0, _⟩ => show win0_1.index t 0 * 5000 + 1 * (y 0).val = (k 0).val; omega
  | ⟨1, _⟩ => show win0_1.index t 1 * 128 + 1 * (y 1).val = (k 1).val; omega

/-- Block `t` of the degree column is rows `5000 t ...` of the column. -/
theorem blk_deg (c : Dev nD) (t : Fin cfg0.N) (y : S5000x1.Idx) (k : S100000x1.Idx)
    (hk0 : (k 0).val = win0_2.index t 0 * 5000 + (y 0).val) (hk1 : (k 1).val = win0_2.index t 1 * 1 + (y 1).val) :
    (iblk0 V c 2 t : Vec Ideal S5000x1 .f32) y = (V c main_v17 : Vec Ideal S100000x1 .f32) k := by
  unfold iblk0
  rw [View.read_apply]
  refine congrArg (V c main_v17 : S100000x1.Idx → Elt Ideal .f32) ?_
  funext a
  apply Fin.ext
  match a with
  | ⟨0, _⟩ => show win0_2.index t 0 * 5000 + 1 * (y 0).val = (k 0).val; omega
  | ⟨1, _⟩ => show win0_2.index t 1 * 1 + 1 * (y 1).val = (k 1).val; omega

/-- The first weight matrix is read whole at every point. -/
theorem blk_ws (c : Dev nD) (t : Fin cfg0.N) (h0 : win0_3.index t 0 = 0) (h1 : win0_3.index t 1 = 0) :
    (iblk0 V c 3 t : Vec Ideal S128x128 .f32) = (V c main_arg3 : Vec Ideal S128x128 .f32) := by
  funext y
  unfold iblk0
  rw [View.read_apply]
  refine congrArg (V c main_arg3 : S128x128.Idx → Elt Ideal .f32) ?_
  funext a
  apply Fin.ext
  match a with
  | ⟨0, _⟩ => show win0_3.index t 0 * 128 + 1 * (y 0).val = (y 0).val; omega
  | ⟨1, _⟩ => show win0_3.index t 1 * 128 + 1 * (y 1).val = (y 1).val; omega

/-- The second weight matrix is read whole at every point. -/
theorem blk_wn (c : Dev nD) (t : Fin cfg0.N) (h0 : win0_4.index t 0 = 0) (h1 : win0_4.index t 1 = 0) :
    (iblk0 V c 4 t : Vec Ideal S128x128 .f32) = (V c main_arg4 : Vec Ideal S128x128 .f32) := by
  funext y
  unfold iblk0
  rw [View.read_apply]
  refine congrArg (V c main_arg4 : S128x128.Idx → Elt Ideal .f32) ?_
  funext a
  apply Fin.ext
  match a with
  | ⟨0, _⟩ => show win0_4.index t 0 * 128 + 1 * (y 0).val = (y 0).val; omega
  | ⟨1, _⟩ => show win0_4.index t 1 * 128 + 1 * (y 1).val = (y 1).val; omega

/-- The bias is read whole at every point. -/
theorem blk_b (c : Dev nD) (t : Fin cfg0.N) (h0 : win0_5.index t 0 = 0) :
    (iblk0 V c 5 t : Vec Ideal S128 .f32) = (V c main_arg5 : Vec Ideal S128 .f32) := by
  funext y
  unfold iblk0
  rw [View.read_apply]
  refine congrArg (V c main_arg5 : S128.Idx → Elt Ideal .f32) ?_
  funext a
  apply Fin.ext
  match a with
  | ⟨0, _⟩ => show win0_5.index t 0 * 128 + 1 * (y 0).val = (y 0).val; omega

/-- What point `t` writes back is block `t` of the hidden layer of the entry arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e41, e50, e60, e61⟩ := idx_facts t
  funext j
  rw [View.read_apply]
  show k0_pay1 (F := Ideal) (iblk0 V c 0 t) (iblk0 V c 1 t) (iblk0 V c 2 t) (iblk0 V c 3 t) (iblk0 V c 4 t) (iblk0 V c 5 t) j
    = G V c (((cfg0.win 6).blk t).view.emb j)
  rw [blk_ws V c t e30 e31, blk_wn V c t e40 e41, blk_b V c t e50]
  refine tile_eq (V c main_arg0) (V c main_v16) (V c main_v17) (V c main_arg3) (V c main_arg4) (V c main_arg5)
    (iblk0 V c 0 t) (iblk0 V c 1 t) (iblk0 V c 2 t) (V c main_arg3) (V c main_arg4) (V c main_arg5)
    (win0_6.index t 0 * 5000)
    (fun y k h0 h1 => blk_x V c t y k (by omega) (by omega))
    (fun y k h0 h1 => blk_agg V c t y k (by omega) (by omega))
    (fun y k h0 h1 => blk_deg V c t y k (by omega) (by omega))
    rfl rfl rfl j (((cfg0.win 6).blk t).view.emb j) ?_ ?_
  · show win0_6.index t 0 * 5000 + 1 * (j 0).val = win0_6.index t 0 * 5000 + (j 0).val
    omega
  · show win0_6.index t 1 * 128 + 1 * (j 1).val = (j 1).val
    omega

/-- An index of the result array is in tile `t` iff each coordinate is in the tile's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- Every index of the result array is in some tile: node row `r` is in tile `r / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- After the region its result array is the hidden layer of the arrays the region was entered with. -/
theorem final (c : Dev nD) : (dat0 V c).arrAt 6 cfg0.N = G V c :=
  (dat0 V c).arrAt_eq_of_cover 6 (G V c) (fun t _ => flushed_eq V c t) cover

end Cert.KernelIdeal.LayerOne

end
-- ==== Proof.LayerTwo.lean ====
/-
  The second region's result array as one function of the arrays it is entered with.

  The region walks the 100000 node rows in 20 tiles of 5000, as the first one does, now with the hidden features in the
  place of the node features, the neighbour sums of the hidden features, the same degree column, and the 128 x 64
  weight matrices and the 64-entry bias read whole. What the body stores for tile row `p` is the output layer of the
  whole arrays at node 5000 t + p, and the 20 tiles cover every node once, so after the region the result array is the
  output layer of the whole arrays.
-/
import proofs.«124691_j24773371363586_1_alg».proof.Proof.Gen.KernelIdeal.Frame
import proofs.«124691_j24773371363586_1_alg».proof.Proof.CombinePayload
import proofs.«124691_j24773371363586_1_alg».proof.Proof.SageSpec
import Idealize.ShloMosaic.Lib.Pipeline.Value

set_option maxRecDepth 16384
set_option pp.maxSteps 20000
set_option pp.deepTerms false

noncomputable section

namespace Cert.KernelIdeal.LayerTwo

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Combine

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 20 grid points: the three row-tiled inputs move with the output's row tile, every
    column index and every index of the weights and the bias is zero, and the output's row tile is below 20. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) ≤ 19 ∧ win1_6.index t (1 : Fin 2) = 0 :=
  (by decide +kernel : ∀ t : Fin grid1.N, _)

/-- Every row tile is some grid point's. -/
theorem idx_onto : ∀ q0 : Fin 20, ∃ t : Fin cfg1.N, win1_6.index t = ![q0.val, 0] :=
  (by decide +kernel : ∀ q0 : Fin 20, ∃ t : Fin grid1.N, win1_6.index t = ![q0.val, 0])

/-- The output layer of the arrays the region is entered with. -/
abbrev G (c : Dev nD) : Vec Ideal S100000x64 .f32 :=
  Cert.Sage.output (V c main_v18) (V c main_v28) (V c main_v29) (V c main_arg6) (V c main_arg7) (V c main_arg8)

/-- One tile: if the three row-tiled blocks are rows `r ... r + 4999` of whole arrays and the other three blocks are
    whole arrays, the stored tile at row `p` is the output layer of the whole arrays at node `r + p`. -/
theorem tile_eq (X A : Vec Ideal S100000x128 .f32) (D : Vec Ideal S100000x1 .f32) (WS WN : Vec Ideal S128x64 .f32)
    (B : Vec Ideal S64 .f32) (x agg : Vec Ideal S5000x128 .f32) (dg : Vec Ideal S5000x1 .f32)
    (ws wn : Vec Ideal S128x64 .f32) (b : Vec Ideal S64 .f32) (r : ℕ)
    (hx : ∀ (y : S5000x128.Idx) (k : S100000x128.Idx), (k 0).val = r + (y 0).val → (k 1).val = (y 1).val → x y = X k)
    (hagg : ∀ (y : S5000x128.Idx) (k : S100000x128.Idx), (k 0).val = r + (y 0).val → (k 1).val = (y 1).val → agg y = A k)
    (hdg : ∀ (y : S5000x1.Idx) (k : S100000x1.Idx), (k 0).val = r + (y 0).val → (k 1).val = (y 1).val → dg y = D k)
    (hws : ws = WS) (hwn : wn = WN) (hb : b = B)
    (y : S5000x64.Idx) (k : S100000x64.Idx) (hk0 : (k 0).val = r + (y 0).val) (hk1 : (k 1).val = (y 1).val) :
    k1_pay1 (F := Ideal) x agg dg ws wn b y = Cert.Sage.output X A D WS WN B k := by
  subst hws hwn hb
  obtain ⟨p, q, rfl⟩ : ∃ (p : Fin 5000) (q : Fin 64), y = ix2 p q := ⟨y 0, y 1, eq_ix2 y⟩
  obtain ⟨P, Q, rfl⟩ : ∃ (P : Fin 100000) (Q : Fin 64), k = ix2 P Q := ⟨k 0, k 1, eq_ix2 k⟩
  have hP : P.val = r + p.val := hk0
  obtain rfl : Q = q := Fin.ext hk1
  rw [pay1_apply, Cert.Sage.output_apply]
  unfold Cert.Sage.combineAt
  simp only [fun e => hx (ix2 p e) (ix2 P e) hP rfl, fun e => hagg (ix2 p e) (ix2 P e) hP rfl,
    hdg (ix2 p (0 : Fin 1)) (ix2 P (0 : Fin 1)) hP rfl]

/-- Block `t` of the hidden features is rows `5000 t ...` of the array. -/
theorem blk_x (c : Dev nD) (t : Fin cfg1.N) (y : S5000x128.Idx) (k : S100000x128.Idx)
    (hk0 : (k 0).val = win1_0.index t 0 * 5000 + (y 0).val) (hk1 : (k 1).val = win1_0.index t 1 * 128 + (y 1).val) :
    (iblk1 V c 0 t : Vec Ideal S5000x128 .f32) y = (V c main_v18 : Vec Ideal S100000x128 .f32) k := by
  unfold iblk1
  rw [View.read_apply]
  refine congrArg (V c main_v18 : S100000x128.Idx → Elt Ideal .f32) ?_
  funext a
  apply Fin.ext
  match a with
  | ⟨0, _⟩ => show win1_0.index t 0 * 5000 + 1 * (y 0).val = (k 0).val; omega
  | ⟨1, _⟩ => show win1_0.index t 1 * 128 + 1 * (y 1).val = (k 1).val; omega

/-- Block `t` of the neighbour sums is rows `5000 t ...` of the array. -/
theorem blk_agg (c : Dev nD) (t : Fin cfg1.N) (y : S5000x128.Idx) (k : S100000x128.Idx)
    (hk0 : (k 0).val = win1_1.index t 0 * 5000 + (y 0).val) (hk1 : (k 1).val = win1_1.index t 1 * 128 + (y 1).val) :
    (iblk1 V c 1 t : Vec Ideal S5000x128 .f32) y = (V c main_v28 : Vec Ideal S100000x128 .f32) k := by
  unfold iblk1
  rw [View.read_apply]
  refine congrArg (V c main_v28 : S100000x128.Idx → Elt Ideal .f32) ?_
  funext a
  apply Fin.ext
  match a with
  | ⟨0, _⟩ => show win1_1.index t 0 * 5000 + 1 * (y 0).val = (k 0).val; omega
  | ⟨1, _⟩ => show win1_1.index t 1 * 128 + 1 * (y 1).val = (k 1).val; omega

/-- Block `t` of the degree column is rows `5000 t ...` of the column. -/
theorem blk_deg (c : Dev nD) (t : Fin cfg1.N) (y : S5000x1.Idx) (k : S100000x1.Idx)
    (hk0 : (k 0).val = win1_2.index t 0 * 5000 + (y 0).val) (hk1 : (k 1).val = win1_2.index t 1 * 1 + (y 1).val) :
    (iblk1 V c 2 t : Vec Ideal S5000x1 .f32) y = (V c main_v29 : Vec Ideal S100000x1 .f32) k := by
  unfold iblk1
  rw [View.read_apply]
  refine congrArg (V c main_v29 : S100000x1.Idx → Elt Ideal .f32) ?_
  funext a
  apply Fin.ext
  match a with
  | ⟨0, _⟩ => show win1_2.index t 0 * 5000 + 1 * (y 0).val = (k 0).val; omega
  | ⟨1, _⟩ => show win1_2.index t 1 * 1 + 1 * (y 1).val = (k 1).val; omega

/-- The first weight matrix is read whole at every point. -/
theorem blk_ws (c : Dev nD) (t : Fin cfg1.N) (h0 : win1_3.index t 0 = 0) (h1 : win1_3.index t 1 = 0) :
    (iblk1 V c 3 t : Vec Ideal S128x64 .f32) = (V c main_arg6 : Vec Ideal S128x64 .f32) := by
  funext y
  unfold iblk1
  rw [View.read_apply]
  refine congrArg (V c main_arg6 : S128x64.Idx → Elt Ideal .f32) ?_
  funext a
  apply Fin.ext
  match a with
  | ⟨0, _⟩ => show win1_3.index t 0 * 128 + 1 * (y 0).val = (y 0).val; omega
  | ⟨1, _⟩ => show win1_3.index t 1 * 64 + 1 * (y 1).val = (y 1).val; omega

/-- The second weight matrix is read whole at every point. -/
theorem blk_wn (c : Dev nD) (t : Fin cfg1.N) (h0 : win1_4.index t 0 = 0) (h1 : win1_4.index t 1 = 0) :
    (iblk1 V c 4 t : Vec Ideal S128x64 .f32) = (V c main_arg7 : Vec Ideal S128x64 .f32) := by
  funext y
  unfold iblk1
  rw [View.read_apply]
  refine congrArg (V c main_arg7 : S128x64.Idx → Elt Ideal .f32) ?_
  funext a
  apply Fin.ext
  match a with
  | ⟨0, _⟩ => show win1_4.index t 0 * 128 + 1 * (y 0).val = (y 0).val; omega
  | ⟨1, _⟩ => show win1_4.index t 1 * 64 + 1 * (y 1).val = (y 1).val; omega

/-- The bias is read whole at every point. -/
theorem blk_b (c : Dev nD) (t : Fin cfg1.N) (h0 : win1_5.index t 0 = 0) :
    (iblk1 V c 5 t : Vec Ideal S64 .f32) = (V c main_arg8 : Vec Ideal S64 .f32) := by
  funext y
  unfold iblk1
  rw [View.read_apply]
  refine congrArg (V c main_arg8 : S64.Idx → Elt Ideal .f32) ?_
  funext a
  apply Fin.ext
  match a with
  | ⟨0, _⟩ => show win1_5.index t 0 * 64 + 1 * (y 0).val = (y 0).val; omega

/-- What point `t` writes back is block `t` of the output layer of the entry arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x64) hz2, View.ld_unit_zero (S := S64) hz1]
  obtain ⟨e00, e01, e10, e11, e20, e21, e30, e31, e40, e41, e50, e60, e61⟩ := idx_facts t
  funext j
  rw [View.read_apply]
  show k1_pay1 (F := Ideal) (iblk1 V c 0 t) (iblk1 V c 1 t) (iblk1 V c 2 t) (iblk1 V c 3 t) (iblk1 V c 4 t) (iblk1 V c 5 t) j
    = G V c (((cfg1.win 6).blk t).view.emb j)
  rw [blk_ws V c t e30 e31, blk_wn V c t e40 e41, blk_b V c t e50]
  refine tile_eq (V c main_v18) (V c main_v28) (V c main_v29) (V c main_arg6) (V c main_arg7) (V c main_arg8)
    (iblk1 V c 0 t) (iblk1 V c 1 t) (iblk1 V c 2 t) (V c main_arg6) (V c main_arg7) (V c main_arg8)
    (win1_6.index t 0 * 5000)
    (fun y k h0 h1 => blk_x V c t y k (by omega) (by omega))
    (fun y k h0 h1 => blk_agg V c t y k (by omega) (by omega))
    (fun y k h0 h1 => blk_deg V c t y k (by omega) (by omega))
    rfl rfl rfl j (((cfg1.win 6).blk t).view.emb j) ?_ ?_
  · show win1_6.index t 0 * 5000 + 1 * (j 0).val = win1_6.index t 0 * 5000 + (j 0).val
    omega
  · show win1_6.index t 1 * 64 + 1 * (j 1).val = (j 1).val
    omega

/-- An index of the result array is in tile `t` iff each coordinate is in the tile's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v30).slice (win1_6.rect t)).set ↔ _
  rw [View.set_slice_whole, Rect.mem_set_unit]
  exact Iff.rfl

/-- Every index of the result array is in some tile: node row `r` is in tile `r / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- After the region its result array is the output layer of the arrays the region was entered with. -/
theorem final (c : Dev nD) : (dat1 V c).arrAt 6 cfg1.N = G V c :=
  (dat1 V c).arrAt_eq_of_cover 6 (G V c) (fun t _ => flushed_eq V c t) cover

end Cert.KernelIdeal.LayerTwo

end
-- ==== Proof.RefSpec.lean ====
/-
  The reference's two layers, read one operation at a time, are the layers of the specification.

  The reference computes a layer as: the neighbour sums divided by the degree (a vector, made a column and then repeated
  along the rows), a product of the node features with the first matrix, a product of that quotient with the second
  matrix, the sum of the two products, and the bias repeated along the rows and added. Each product's entry is a sum
  over the 128 input features. Read at node `p` and output feature `q` that is exactly the specification's layer; the
  hidden layer ends with the maximum against a zero array.
-/
import proofs.«124691_j24773371363586_1_alg».proof.Proof.Gen.ReferenceIdeal.Read
import proofs.«124691_j24773371363586_1_alg».proof.Proof.SageSpec

noncomputable section

namespace Cert.ReferenceIdeal.Spec

open Idealize.ShloMosaic Idealize.ShloMosaic.ValueIdx
open Cert.ReferenceIdeal Cert.ReferenceIdeal.Read

/-- The hidden layer, as the reference computes it, is the specification's hidden layer of the node features, the
    first neighbour sums and the degree column. -/
theorem hidden_eq (x0 : (⟨S100000x128, .f32⟩ : BufTy).Contents (Elt Ideal)) (x1 x2 : (⟨S1000000, .i32⟩ : BufTy).Contents (Elt Ideal))
    (x3 x4 : (⟨S128x128, .f32⟩ : BufTy).Contents (Elt Ideal)) (x5 : (⟨S128, .f32⟩ : BufTy).Contents (Elt Ideal)) :
    val_main_v26 (F := Ideal) x0 x1 x2 x3 x4 x5
      = Cert.Sage.hidden x0 (val_main_v12 (F := Ideal) x0 x1 x2) (val_main_v17 (F := Ideal) x2) x3 x4 x5 := by
  funext i
  obtain ⟨p, q, rfl⟩ : ∃ (p : Fin 100000) (q : Fin 128), i = ix2 p q := ⟨i 0, i 1, eq_ix2 i⟩
  have el : ∀ k : Fin 128, lidx_main_v20 (ix2 p q) k = ix2 p k := fun k => funext fun a => Fin.ext (by
    match a with | ⟨0, _⟩ => rfl | ⟨1, _⟩ => rfl)
  have er : ∀ k : Fin 128, ridx_main_v20 (ix2 p q) k = ix2 k q := fun k => funext fun a => Fin.ext (by
    match a with | ⟨0, _⟩ => rfl | ⟨1, _⟩ => rfl)
  have el' : ∀ k : Fin 128, lidx_main_v21 (ix2 p q) k = ix2 p k := fun k => funext fun a => Fin.ext (by
    match a with | ⟨0, _⟩ => rfl | ⟨1, _⟩ => rfl)
  have er' : ∀ k : Fin 128, ridx_main_v21 (ix2 p q) k = ix2 k q := fun k => funext fun a => Fin.ext (by
    match a with | ⟨0, _⟩ => rfl | ⟨1, _⟩ => rfl)
  have eb : idx_main_v23 (idx_main_v24 (ix2 p q)) = ix1 q := funext fun a => Fin.ext (by
    match a with | ⟨0, _⟩ => rfl)
  have ed : ∀ k : Fin 128, idx_main_v17 (idx_main_v18 (ix2 p k)) = idx_main_v17 (ix2 p (0 : Fin 1)) := fun k => funext fun a => Fin.ext (by
    match a with | ⟨0, _⟩ => rfl)
  have h1 : ∀ k : Fin 128, x0 (lidx_main_v20 (ix2 p q) k) * x3 (ridx_main_v20 (ix2 p q) k) = x0 (ix2 p k) * x3 (ix2 k q) :=
    fun k => by rw [el k, er k]
  have h2 : ∀ k : Fin 128, val_main_v19 (F := Ideal) x0 x1 x2 (lidx_main_v21 (ix2 p q) k) * x4 (ridx_main_v21 (ix2 p q) k)
      = Ideal.div (val_main_v12 (F := Ideal) x0 x1 x2 (ix2 p k)) (val_main_v17 (F := Ideal) x2 (ix2 p (0 : Fin 1))) * x4 (ix2 k q) :=
    fun k => by
      rw [el' k, er' k, val_main_v19_apply, val_main_v18_apply, val_main_v17_apply, val_main_v17_apply, ed k, Ideal.hostDivf_def]
  rw [val_main_v26_apply, val_main_v25_apply, val_main_v22_apply, val_main_v20_apply, val_main_v21_apply,
    val_main_v24_apply, val_main_v23_apply, val_main_call0_v0_apply, val_main_call0_cst_apply, Cert.Sage.hidden_apply]
  unfold Cert.Sage.combineAt
  rw [Finset.sum_congr rfl (fun k _ => h1 k), Finset.sum_congr rfl (fun k _ => h2 k), eb,
    Ideal.maximumf_def, Ideal.addf_def, Ideal.addf_def, Ideal.ofBits_def]

/-- The output layer, as the reference computes it, is the specification's output layer of the hidden layer, the
    second neighbour sums and the degree column. -/
theorem output_eq (x0 : (⟨S100000x128, .f32⟩ : BufTy).Contents (Elt Ideal)) (x1 x2 : (⟨S1000000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x64, .f32⟩ : BufTy).Contents (Elt Ideal)) (x8 : (⟨S64, .f32⟩ : BufTy).Contents (Elt Ideal)) :
    val_main_v49 (F := Ideal) x0 x1 x2 x3 x4 x5 x6 x7 x8
      = Cert.Sage.output (val_main_v26 (F := Ideal) x0 x1 x2 x3 x4 x5) (val_main_v36 (F := Ideal) x0 x1 x2 x3 x4 x5)
          (val_main_v41 (F := Ideal) x2) x6 x7 x8 := by
  funext i
  obtain ⟨p, q, rfl⟩ : ∃ (p : Fin 100000) (q : Fin 64), i = ix2 p q := ⟨i 0, i 1, eq_ix2 i⟩
  have el : ∀ k : Fin 128, lidx_main_v44 (ix2 p q) k = ix2 p k := fun k => funext fun a => Fin.ext (by
    match a with | ⟨0, _⟩ => rfl | ⟨1, _⟩ => rfl)
  have er : ∀ k : Fin 128, ridx_main_v44 (ix2 p q) k = ix2 k q := fun k => funext fun a => Fin.ext (by
    match a with | ⟨0, _⟩ => rfl | ⟨1, _⟩ => rfl)
  have el' : ∀ k : Fin 128, lidx_main_v45 (ix2 p q) k = ix2 p k := fun k => funext fun a => Fin.ext (by
    match a with | ⟨0, _⟩ => rfl | ⟨1, _⟩ => rfl)
  have er' : ∀ k : Fin 128, ridx_main_v45 (ix2 p q) k = ix2 k q := fun k => funext fun a => Fin.ext (by
    match a with | ⟨0, _⟩ => rfl | ⟨1, _⟩ => rfl)
  have eb : idx_main_v47 (idx_main_v48 (ix2 p q)) = ix1 q := funext fun a => Fin.ext (by
    match a with | ⟨0, _⟩ => rfl)
  have ed : ∀ k : Fin 128, idx_main_v41 (idx_main_v42 (ix2 p k)) = idx_main_v41 (ix2 p (0 : Fin 1)) := fun k => funext fun a => Fin.ext (by
    match a with | ⟨0, _⟩ => rfl)
  have h1 : ∀ k : Fin 128, val_main_v26 (F := Ideal) x0 x1 x2 x3 x4 x5 (lidx_main_v44 (ix2 p q) k) * x6 (ridx_main_v44 (ix2 p q) k)
      = val_main_v26 (F := Ideal) x0 x1 x2 x3 x4 x5 (ix2 p k) * x6 (ix2 k q) :=
    fun k => by rw [el k, er k]
  have h2 : ∀ k : Fin 128, val_main_v43 (F := Ideal) x0 x1 x2 x3 x4 x5 (lidx_main_v45 (ix2 p q) k) * x7 (ridx_main_v45 (ix2 p q) k)
      = Ideal.div (val_main_v36 (F := Ideal) x0 x1 x2 x3 x4 x5 (ix2 p k)) (val_main_v41 (F := Ideal) x2 (ix2 p (0 : Fin 1))) * x7 (ix2 k q) :=
    fun k => by
      rw [el' k, er' k, val_main_v43_apply, val_main_v42_apply, val_main_v41_apply, val_main_v41_apply, ed k, Ideal.hostDivf_def]
  rw [val_main_v49_apply, val_main_v46_apply, val_main_v44_apply, val_main_v45_apply,
    val_main_v48_apply, val_main_v47_apply, Cert.Sage.output_apply]
  unfold Cert.Sage.combineAt
  rw [Finset.sum_congr rfl (fun k _ => h1 k), Finset.sum_congr rfl (fun k _ => h2 k), eb, Ideal.addf_def, Ideal.addf_def]

end Cert.ReferenceIdeal.Spec

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.KernelValue.lean ====
/-
  The idealized kernel's result array as a function of the launch arguments.

  The program's buffer contents pass four boundaries. Before the first region the host operations append one self loop
  per node to the source and destination lists, count each node's incoming edges (the degree), gather the source
  nodes' features and add them up per destination node (the neighbour sums), and make the degree a column. The first
  region then leaves the hidden layer of those arrays. Between the regions the host operations gather and add up the
  hidden features over the same edge lists and make the same degree a column again. The second region leaves the output
  layer. Each of these host stages is the same composition of operations the reference applies to the same arguments,
  so every array a region is entered with is a stage of the reference, and the result array is the reference's result
  term of the launch arguments.
-/
import proofs.«124691_j24773371363586_1_alg».proof.Proof.Gen.KernelIdeal.Frame
import proofs.«124691_j24773371363586_1_alg».proof.Proof.Gen.ReferenceIdeal.Read
import proofs.«124691_j24773371363586_1_alg».proof.Proof.LayerOne
import proofs.«124691_j24773371363586_1_alg».proof.Proof.LayerTwo
import proofs.«124691_j24773371363586_1_alg».proof.Proof.RefSpec
import proofs.«124691_j24773371363586_1_alg».proof.Proof.LibVectorColumn
import Idealize.ShloMosaic.Lib.StableHlo.Run

set_option maxRecDepth 16384
set_option pp.maxSteps 20000
set_option pp.deepTerms false

noncomputable section

namespace Cert.KernelIdeal.Value

open Idealize.ShloMosaic Idealize.ShloMosaic.TcCoe Idealize.SL.Sem Idealize.ShloMosaic.StableHlo
open Cert.KernelIdeal Cert.KernelIdeal.Gen

/-! ## The host stages, as terms: the kernel program's spelling is the reference's -/

/-- The neighbour sums of the node features over the edge lists with self loops. -/
theorem agg_of (x0 : (⟨S100000x128, .f32⟩ : BufTy).Contents (Elt Ideal)) (x1 x2 : (⟨S1000000, .i32⟩ : BufTy).Contents (Elt Ideal)) :
    Host.scatterAdd scatter_S100000x128_S1100000x1_S1100000x128_1_0_0_1
      (broadcastInDim S100000x128 ![] bcast_S_S100000x128 (constant (F := Ideal) S_ .f32 0x00000000#32))
      (broadcastInDim S1100000x1 ![0] bcast_S1100000_S1100000x1_0 (concatenate S1100000 0 [⟨S1000000, x2⟩, ⟨S100000, iotaInDim S100000 32 0⟩] concatenates_S1000000_S100000_S1100000_d0))
      (Host.gather gather_S100000x128_S1100000x1_S1100000x128_1_0_n_n_0_1_1128 x0
        (broadcastInDim S1100000x1 ![0] bcast_S1100000_S1100000x1_0
          (select
            (cmpi CmpIPredicate.slt (concatenate S1100000 0 [⟨S1000000, x1⟩, ⟨S100000, iotaInDim S100000 32 0⟩] concatenates_S1000000_S100000_S1100000_d0)
              (broadcastInDim S1100000 ![] bcast_S_S1100000 (constantI S_ 32 0#32)))
            (addi (concatenate S1100000 0 [⟨S1000000, x1⟩, ⟨S100000, iotaInDim S100000 32 0⟩] concatenates_S1000000_S100000_S1100000_d0)
              (broadcastInDim S1100000 ![] bcast_S_S1100000 (constantI S_ 32 100000#32)))
            (concatenate S1100000 0 [⟨S1000000, x1⟩, ⟨S100000, iotaInDim S100000 32 0⟩] concatenates_S1000000_S100000_S1100000_d0))))
      = Cert.ReferenceIdeal.Read.val_main_v12 (F := Ideal) x0 x1 x2 := rfl

/-- The degree: one added for every edge, self loops included, at its destination node. -/
theorem deg_of (x2 : (⟨S1000000, .i32⟩ : BufTy).Contents (Elt Ideal)) :
    Host.scatterAdd scatter_S100000_S1100000x1_S1100000_n_0_0_1
      (broadcastInDim S100000 ![] bcast_S_S100000 (constant (F := Ideal) S_ .f32 0x00000000#32))
      (broadcastInDim S1100000x1 ![0] bcast_S1100000_S1100000x1_0 (concatenate S1100000 0 [⟨S1000000, x2⟩, ⟨S100000, iotaInDim S100000 32 0⟩] concatenates_S1000000_S100000_S1100000_d0))
      (broadcastInDim S1100000 ![] bcast_S_S1100000 (constant (F := Ideal) S_ .f32 0x3F800000#32))
      = Cert.ReferenceIdeal.Read.val_main_v16 (F := Ideal) x2 := rfl

/-- The neighbour sums of the hidden features over the same edge lists. -/
theorem agg2_of (x0 : (⟨S100000x128, .f32⟩ : BufTy).Contents (Elt Ideal)) (x1 x2 : (⟨S1000000, .i32⟩ : BufTy).Contents (Elt Ideal)) (x3 x4 : (⟨S128x128, .f32⟩ : BufTy).Contents (Elt Ideal)) (x5 : (⟨S128, .f32⟩ : BufTy).Contents (Elt Ideal)) :
    Host.scatterAdd scatter_S100000x128_S1100000x1_S1100000x128_1_0_0_1
      (broadcastInDim S100000x128 ![] bcast_S_S100000x128 (constant (F := Ideal) S_ .f32 0x00000000#32))
      (broadcastInDim S1100000x1 ![0] bcast_S1100000_S1100000x1_0 (concatenate S1100000 0 [⟨S1000000, x2⟩, ⟨S100000, iotaInDim S100000 32 0⟩] concatenates_S1000000_S100000_S1100000_d0))
      (Host.gather gather_S100000x128_S1100000x1_S1100000x128_1_0_n_n_0_1_1128 (Cert.ReferenceIdeal.Read.val_main_v26 (F := Ideal) x0 x1 x2 x3 x4 x5)
        (broadcastInDim S1100000x1 ![0] bcast_S1100000_S1100000x1_0
          (select
            (cmpi CmpIPredicate.slt (concatenate S1100000 0 [⟨S1000000, x1⟩, ⟨S100000, iotaInDim S100000 32 0⟩] concatenates_S1000000_S100000_S1100000_d0)
              (broadcastInDim S1100000 ![] bcast_S_S1100000 (constantI S_ 32 0#32)))
            (addi (concatenate S1100000 0 [⟨S1000000, x1⟩, ⟨S100000, iotaInDim S100000 32 0⟩] concatenates_S1000000_S100000_S1100000_d0)
              (broadcastInDim S1100000 ![] bcast_S_S1100000 (constantI S_ 32 100000#32)))
            (concatenate S1100000 0 [⟨S1000000, x1⟩, ⟨S100000, iotaInDim S100000 32 0⟩] concatenates_S1000000_S100000_S1100000_d0))))
      = Cert.ReferenceIdeal.Read.val_main_v36 (F := Ideal) x0 x1 x2 x3 x4 x5 := rfl

/-- The reference counts the degree a second time for its second layer: the same count. -/
theorem deg2_of (x2 : (⟨S1000000, .i32⟩ : BufTy).Contents (Elt Ideal)) : Cert.ReferenceIdeal.Read.val_main_v40 (F := Ideal) x2 = Cert.ReferenceIdeal.Read.val_main_v16 (F := Ideal) x2 := rfl

variable (m : (ℓ : Loc nD τ sig) → Buf (Elt Ideal) ℓ) (ρ : Dev nD → PrngReg) (c : Dev nD)

/-! ## What the first region is entered with -/

/-- The node features reach the first region as launched. -/
theorem entry0_x : V1 m ρ c main_arg0 = m ((c.tc : Thread nD τ).loc main_arg0) := by
  show StableHlo.after hostOps0 (W0 m ρ c) (Proc.devRef .tc main_arg0) = _
  after_results <;> rfl

/-- The first layer's first weight matrix reaches the first region as launched. -/
theorem entry0_ws : V1 m ρ c main_arg3 = m ((c.tc : Thread nD τ).loc main_arg3) := by
  show StableHlo.after hostOps0 (W0 m ρ c) (Proc.devRef .tc main_arg3) = _
  after_results <;> rfl

/-- The first layer's second weight matrix reaches the first region as launched. -/
theorem entry0_wn : V1 m ρ c main_arg4 = m ((c.tc : Thread nD τ).loc main_arg4) := by
  show StableHlo.after hostOps0 (W0 m ρ c) (Proc.devRef .tc main_arg4) = _
  after_results <;> rfl

/-- The first layer's bias reaches the first region as launched. -/
theorem entry0_b : V1 m ρ c main_arg5 = m ((c.tc : Thread nD τ).loc main_arg5) := by
  show StableHlo.after hostOps0 (W0 m ρ c) (Proc.devRef .tc main_arg5) = _
  after_results <;> rfl

set_option maxHeartbeats 4000000 in
/-- The first region's second operand is the neighbour sums of the node features. -/
theorem entry0_agg : V1 m ρ c main_v16 = Cert.ReferenceIdeal.Read.val_main_v12 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v16) = _
  after_results
  exact agg_of _ _ _

set_option maxHeartbeats 4000000 in
/-- The first region's third operand is the degree as a column. -/
theorem entry0_deg : V1 m ρ c main_v17 = Cert.ReferenceIdeal.Read.val_main_v17 (F := Ideal) (m ((c.tc : Thread nD τ).loc main_arg2)) := by
  show StableHlo.after hostOps0 (W0 m ρ c) (Proc.devRef .tc main_v17) = _
  after_results
  rw [deg_of]
  exact Cert.LibVectorColumn.shapeCast_eq_broadcastInDim (a := 100000) _ _ _

/-! ## What the first region leaves -/

/-- After the first region its result array is the reference's hidden layer of the launch arguments. -/
theorem hidden_arr : W2 m ρ c (Proc.devRef .tc main_v18)
    = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W2_arr m ρ c 6).trans ?_
  rw [Cert.KernelIdeal.LayerOne.final (V1 m ρ) c]
  show Cert.Sage.hidden (V1 m ρ c main_arg0) (V1 m ρ c main_v16) (V1 m ρ c main_v17) (V1 m ρ c main_arg3) (V1 m ρ c main_arg4)
    (V1 m ρ c main_arg5) = _
  rw [entry0_x m ρ c, entry0_agg m ρ c, entry0_deg m ρ c, entry0_ws m ρ c, entry0_wn m ρ c, entry0_b m ρ c,
    ← Cert.ReferenceIdeal.Spec.hidden_eq]

/-! ## What the second region is entered with -/

set_option maxHeartbeats 4000000 in
/-- The source list with self loops is carried unchanged across the first region. -/
theorem src_arr : W2 m ρ c (Proc.devRef .tc main_v1) = (concatenate S1100000 0 [⟨S1000000, (m ((c.tc : Thread nD τ).loc main_arg1))⟩, ⟨S100000, iotaInDim S100000 32 0⟩] concatenates_S1000000_S100000_S1100000_d0) := by
  rw [W2_of_ne m ρ c main_v1 (by decide)]
  show StableHlo.after hostOps0 (W0 m ρ c) (Proc.devRef .tc main_v1) = _
  after_results <;> rfl

set_option maxHeartbeats 4000000 in
/-- The destination list with self loops is carried unchanged across the first region. -/
theorem dst_arr : W2 m ρ c (Proc.devRef .tc main_v2) = (concatenate S1100000 0 [⟨S1000000, (m ((c.tc : Thread nD τ).loc main_arg2))⟩, ⟨S100000, iotaInDim S100000 32 0⟩] concatenates_S1000000_S100000_S1100000_d0) := by
  rw [W2_of_ne m ρ c main_v2 (by decide)]
  show StableHlo.after hostOps0 (W0 m ρ c) (Proc.devRef .tc main_v2) = _
  after_results <;> rfl

set_option maxHeartbeats 4000000 in
/-- The degree is carried unchanged across the first region. -/
theorem deg_arr : W2 m ρ c (Proc.devRef .tc main_v6) = Cert.ReferenceIdeal.Read.val_main_v16 (F := Ideal) (m ((c.tc : Thread nD τ).loc main_arg2)) := by
  rw [W2_of_ne m ρ c main_v6 (by decide)]
  show StableHlo.after hostOps0 (W0 m ρ c) (Proc.devRef .tc main_v6) = _
  after_results
  exact deg_of _

set_option maxHeartbeats 4000000 in
/-- The second region's first operand is the hidden layer. -/
theorem entry1_h : V3 m ρ c main_v18
    = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W2 m ρ c) (Proc.devRef .tc main_v18) = _
  after_results
  exact hidden_arr m ρ c

set_option maxHeartbeats 4000000 in
/-- The second region's second operand is the neighbour sums of the hidden features. -/
theorem entry1_agg : V3 m ρ c main_v28
    = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W2 m ρ c) (Proc.devRef .tc main_v28) = _
  after_results
  rw [hidden_arr m ρ c, src_arr m ρ c, dst_arr m ρ c]
  exact agg2_of _ _ _ _ _ _

set_option maxHeartbeats 4000000 in
/-- The second region's third operand is the same degree as a column. -/
theorem entry1_deg : V3 m ρ c main_v29 = Cert.ReferenceIdeal.Read.val_main_v41 (F := Ideal) (m ((c.tc : Thread nD τ).loc main_arg2)) := by
  show StableHlo.after hostOps1 (W2 m ρ c) (Proc.devRef .tc main_v29) = _
  after_results
  rw [deg_arr m ρ c, ← deg2_of]
  exact Cert.LibVectorColumn.shapeCast_eq_broadcastInDim (a := 100000) _ _ _

set_option maxHeartbeats 4000000 in
/-- The second layer's first weight matrix reaches the second region as launched. -/
theorem entry1_ws : V3 m ρ c main_arg6 = m ((c.tc : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results <;> rfl

set_option maxHeartbeats 4000000 in
/-- The second layer's second weight matrix reaches the second region as launched. -/
theorem entry1_wn : V3 m ρ c main_arg7 = m ((c.tc : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results <;> rfl

set_option maxHeartbeats 4000000 in
/-- The second layer's bias reaches the second region as launched. -/
theorem entry1_b : V3 m ρ c main_arg8 = m ((c.tc : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results <;> rfl

/-! ## The result -/

/-- After the second region the result array is the reference's result term of the launch arguments. -/
theorem result : W4 m ρ c (Proc.devRef .tc main_v30)
    = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 6).trans ?_
  rw [Cert.KernelIdeal.LayerTwo.final (V3 m ρ) c]
  show Cert.Sage.output (V3 m ρ c main_v18) (V3 m ρ c main_v28) (V3 m ρ c main_v29) (V3 m ρ c main_arg6) (V3 m ρ c main_arg7)
    (V3 m ρ c main_arg8) = _
  rw [entry1_h m ρ c, entry1_agg m ρ c, entry1_deg m ρ c, entry1_ws m ρ c, entry1_wn m ρ c, entry1_b m ρ c,
    ← Cert.ReferenceIdeal.Spec.output_eq]

end Cert.KernelIdeal.Value

end
-- ==== Proof.lean ====
/-
  A two-layer mean-aggregating graph network on 100000 nodes: the tiled kernel program against the plain reference.

  Both programs append one self loop per node to the edge lists, count each node's degree, and for each layer add up
  the source nodes' features per destination node; a layer is then, at node p and output feature q,
      (sum_e X(p,e) * WS(e,q) + sum_e (A(p,e) / D(p)) * WN(e,q)) + B(q),
  with a maximum against zero after the first layer. The kernel program computes each layer in a region that walks
  the nodes in 20 tiles of 5000 rows, the degree entering as a column; the reference computes it with whole-array
  operations. Over the exact extended reals a tile's matrix product into a zero accumulator is the same sum as the
  reference's product, a row of the result depends only on the same row of the row-tiled operands, and the 20 tiles
  cover every node once, so each region leaves the reference's layer of the arrays it is entered with; and those
  arrays are the same host operations of the same arguments in both programs. No arithmetic law beyond that identity
  is used, so the finiteness of the inputs is not needed for the values.

  The three frame claims are the generated frames (the reference's is its generated run with the result dropped); the
  idealization rewrote nothing, so there is nothing to preserve.
-/
import proofs.«124691_j24773371363586_1_alg».proof.Defs
import proofs.«124691_j24773371363586_1_alg».proof.Proof.Gen.Kernel
import proofs.«124691_j24773371363586_1_alg».proof.Proof.Gen.Kernel.Skeleton
import proofs.«124691_j24773371363586_1_alg».proof.Proof.Gen.Kernel.Launch
import proofs.«124691_j24773371363586_1_alg».proof.Proof.Gen.Kernel.Points
import proofs.«124691_j24773371363586_1_alg».proof.Proof.Gen.Kernel.Frame
import proofs.«124691_j24773371363586_1_alg».proof.Proof.Gen.KernelIdeal
import proofs.«124691_j24773371363586_1_alg».proof.Proof.Gen.KernelIdeal.Skeleton
import proofs.«124691_j24773371363586_1_alg».proof.Proof.Gen.KernelIdeal.Launch
import proofs.«124691_j24773371363586_1_alg».proof.Proof.Gen.KernelIdeal.Points
import proofs.«124691_j24773371363586_1_alg».proof.Proof.Gen.KernelIdeal.Frame
import proofs.«124691_j24773371363586_1_alg».proof.Proof.Gen.ReferenceIdeal
import proofs.«124691_j24773371363586_1_alg».proof.Proof.Gen.ReferenceIdeal.Run
import proofs.«124691_j24773371363586_1_alg».proof.Proof.Gen.ReferenceIdeal.Read
import proofs.«124691_j24773371363586_1_alg».proof.Proof.Gen.Pre_finite_inputs
import proofs.«124691_j24773371363586_1_alg».proof.Proof.KernelRun
import proofs.«124691_j24773371363586_1_alg».proof.Proof.KernelValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both idealized programs end with the same result array: the
    reference's result term of those arguments. -/
theorem algebraic : Cert.algebraic_KernelIdeal_ReferenceIdeal := by
  intro m ρ m' ρ' _ hagree
  refine ⟨fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Value.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq]
    obtain ⟨a0, a1, a2, a3, a4, a5, a6, a7, a8⟩ := hagree c
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
